-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2048x1024 .f32) (main_arg1 : FVec F S8192x1024 .f32) (main_arg2 : FVec F S8192x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S2048x1024 : Shape := ⟨2, ![2048, 1024]⟩
abbrev S8192x1024 : Shape := ⟨2, ![8192, 1024]⟩
abbrev S8192x2048 : Shape := ⟨2, ![8192, 2048]⟩
abbrev S8192x1 : Shape := ⟨2, ![8192, 1]⟩
abbrev S512x1024 : Shape := ⟨2, ![512, 1024]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x2048, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S2048x1024, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1024, .f32⟩
  | .local _ .vmem, ⟨10, _⟩ => ⟨S512x1024, .bf16⟩
  | .local _ .vmem, ⟨11, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_cst_4 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  reduces_S512x1024_S512 : S512x1024.Reduces [1] S512
  shapeCasts_S512_S512x1 : S512.ShapeCasts S512x1
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reducesTo_S8192x1_S_d0_1 : S8192x1.ReducesTo [0, 1] S_
  h_S_ : 0 < S_.numel
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x2048.size a
  hwx0_1 : ∀ i : grid0.Coords, EltTy.bits .f32 = 32 ∨ (Rect.block (s := S8192x2048) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S1024x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S2048x1024_S2048_d1 : S2048x1024.ReducesTo [1] S2048
  bcast_S2048_S1x2048_1 : S2048.BroadcastsInDim S1x2048 (![1] : Fin 1 → Fin S1x2048.rank)
  transposes_S2048x1024_S1024x2048_1_0 : S2048x1024.Transposes [1, 0] S1024x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  reducesTo_S8192_S_d0 : S8192.ReducesTo [0] S_
  reducesTo_S8192x2048_S8192_d1 : S8192x2048.ReducesTo [1] S8192
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Pieces.lean ====
/-
  What one run of the kernel body leaves in each buffer it stores into, as a pure function of what the buffers held
  before.  The body has three control cases along the dictionary axis of the grid: the FIRST tile of a sweep (it resets
  the two accumulators and caches the batch tile's rows and their squared norms), a MIDDLE tile (it only accumulates),
  and the LAST tile (it accumulates and then writes the squared residual norms).  In every case the values stored are
  the body's named arithmetic terms applied to the loaded blocks; the only block not loaded whole is the dictionary
  tile, 512 consecutive rows of the resident dictionary starting at row 512·k.
-/
import proofs.«144259_j1580547970481_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The dictionary tile of grid point `i`: rows `512·k … 512·k + 511` of the resident dictionary, `k` the point's
    coordinate along the dictionary axis. -/
def dictTile (i : grid0.Coords) (x2 : Vec F S2048x1024 .f32) : Vec F S512x1024 .f32 :=
  View.ld x2 (Rect.unit (s := S2048x1024) (k0_off1 i) S512x1024.size (k0_off1_inb i))

/-- The running product accumulator after one more tile: what it held plus this tile's product. -/
def accStep (i : grid0.Coords) (x1 : Vec F S512x512 .f32) (x2 : Vec F S2048x1024 .f32) (acc : Vec F S512x1024 .f32) :
    Vec F S512x1024 .f32 :=
  k0_pay1 (k0_pay9 (dictTile i x2) x1 acc)

/-- The running weighted row sum after one more tile. -/
def wsumStep (i : grid0.Coords) (x1 : Vec F S512x512 .f32) (x2 : Vec F S2048x1024 .f32) (ybf : Vec F S512x1024 .bf16)
    (ysq : Vec F S512x1 .f32) (ws : Vec F S512x1 .f32) : Vec F S512x1 .f32 :=
  k0_pay8 (dictTile i x2) x1 ybf ysq ws

variable (c : Dev nD) (i : grid0.Coords)
  (arg2 : Memref sig .tc .vmem S512x1024 .f32) (harg2 : arg2.IsWhole)
  (arg3 : Memref sig .tc .vmem S512x512 .f32) (harg3 : arg3.IsWhole)
  (arg4 : Memref sig .tc .vmem S2048x1024 .f32) (harg4 : arg4.IsWhole)
  (arg5 : Memref sig .tc .vmem S512x1 .f32) (harg5 : arg5.IsWhole)
  (arg6 : Memref sig .tc .vmem S512x1 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S512x1 .f32) (harg9 : arg9.IsWhole)
  (x0 : Vec F S512x1024 .f32) (x1 : Vec F S512x512 .f32) (x2 : Vec F S2048x1024 .f32)

/-! ## A middle tile -/

/-- A middle tile adds its product to the accumulator. -/
theorem sout_B_0 (hc0 : ¬cond0_0 i) (hc1 : ¬cond0_1 i) (xo4 : Vec F S512x1 .f32) (xs0 : Vec F S512x1024 .f32) (xs1 : Vec F S512x1024 .bf16) (xs2 : Vec F S512x1 .f32) :
    sout0_B_0 c i arg2 harg2 arg3 harg3 arg4 harg4 arg5 harg5 arg6 harg6 arg7 harg7 arg8 harg8 arg9 harg9 hc0 hc1 x0 x1 x2 xo4 xs0 xs1 xs2 = accStep i x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xo4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rfl

/-- A middle tile adds its weighted row sums to the running ones, reading the cached rows and norms. -/
theorem out_B_4 (hc0 : ¬cond0_0 i) (hc1 : ¬cond0_1 i) (xo4 : Vec F S512x1 .f32) (xs0 : Vec F S512x1024 .f32) (xs1 : Vec F S512x1024 .bf16) (xs2 : Vec F S512x1 .f32) :
    out0_B_4 c i arg2 harg2 arg3 harg3 arg4 harg4 arg5 harg5 arg6 harg6 arg7 harg7 arg8 harg8 arg9 harg9 hc0 hc1 x0 x1 x2 xo4 xs0 xs1 xs2 = wsumStep i x1 x2 xs1 xs2 xo4 := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 xo4 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rfl

/-! ## The last tile -/

/-- The last tile adds its product to the accumulator. -/
theorem sout_C_0 (hc0 : ¬cond0_0 i) (hc1 : cond0_1 i) (xo4 : Vec F S512x1 .f32) (xs0 : Vec F S512x1024 .f32) (xs1 : Vec F S512x1024 .bf16) (xs2 : Vec F S512x1 .f32) :
    sout0_C_0 c i arg2 harg2 arg3 harg3 arg4 harg4 arg5 harg5 arg6 harg6 arg7 harg7 arg8 harg8 arg9 harg9 hc0 hc1 x0 x1 x2 xo4 xs0 xs1 xs2 = accStep i x1 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xo4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rfl

/-- The last tile adds its weighted row sums to the running ones. -/
theorem out_C_4 (hc0 : ¬cond0_0 i) (hc1 : cond0_1 i) (xo4 : Vec F S512x1 .f32) (xs0 : Vec F S512x1024 .f32) (xs1 : Vec F S512x1024 .bf16) (xs2 : Vec F S512x1 .f32) :
    out0_C_4 c i arg2 harg2 arg3 harg3 arg4 harg4 arg5 harg5 arg6 harg6 arg7 harg7 arg8 harg8 arg9 harg9 hc0 hc1 x0 x1 x2 xo4 xs0 xs1 xs2 = wsumStep i x1 x2 xs1 xs2 xo4 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xo4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rfl

/-- The last tile then writes, per row, the squared norm of the batch row minus the finished accumulator's row. -/
theorem out_C_3 (hc0 : ¬cond0_0 i) (hc1 : cond0_1 i) (xo4 : Vec F S512x1 .f32) (xs0 : Vec F S512x1024 .f32) (xs1 : Vec F S512x1024 .bf16) (xs2 : Vec F S512x1 .f32) :
    out0_C_3 c i arg2 harg2 arg3 harg3 arg4 harg4 arg5 harg5 arg6 harg6 arg7 harg7 arg8 harg8 arg9 harg9 hc0 hc1 x0 x1 x2 xo4 xs0 xs1 xs2 = k0_pay2 x0 (accStep i x1 x2 xs0) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xo4 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rw [View.readCov_unit_zero (S := S512x1024) _ hz]
  rfl

/-! ## The first tile of a sweep -/

/-- The zero block the first tile resets the product accumulator to, and the zero column it resets the running
    weighted row sums to. -/
abbrev zeroAcc : Vec F S512x1024 .f32 := k0_pay3
abbrev zeroCol : Vec F S512x1 .f32 := k0_pay4

/-- The first tile caches the batch tile's rows (narrowed to the matrix unit's input format), -/
theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 = k0_pay5 x0 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]

/-- and their squared norms; -/
theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 = k0_pay6 x0 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]

/-- it zeroes the product accumulator, reads the zero back and adds its own product; -/
theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 = accStep i x1 x2 zeroAcc := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1024) hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rw [View.readCov_unit_zero (S := S512x1024) _ hz]
  rfl

/-- and it zeroes the running weighted row sums, reads the zero, the cached rows and the cached norms back, and adds
    its own weighted row sums. -/
theorem out_A_4 (hc0 : cond0_0 i) (hc1 : ¬cond0_1 i) :
    out0_A_4 c i arg2 harg2 arg3 harg3 arg4 harg4 arg5 harg5 arg6 harg6 arg7 harg7 arg8 harg8 arg9 harg9 hc0 hc1 x0 x1 x2 = wsumStep i x1 x2 (k0_pay5 x0) (k0_pay6 x0) zeroCol := by
  unfold out0_A_4
  rw [View.read_writes_eq_canon _ _ _ (cover0_A_4 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x512) hz, View.ld_unit_zero (S := S512x1) hz]
  rw [View.readCov_unit_zero (S := S512x1024) _ hz, View.readCov_unit_zero (S := S512x1) _ hz, View.readCov_unit_zero (S := S512x1) _ hz]
  rfl

end Cert.KernelIdeal.Pieces

end
-- ==== Proof.Steps.lean ====
/-
  What the buffers hold after each grid point, one point from the one before.  After a sweep's FIRST tile the two
  accumulators hold that tile's contribution over zero and the caches hold the batch tile's rows and squared norms;
  after every LATER tile the accumulators hold what they held plus that tile's contribution and the caches are
  untouched; after the LAST tile the first output also holds the squared residual norms against the finished product
  accumulator.
-/
import proofs.«144259_j1580547970481_2_alg».proof.Proof.Gen.KernelIdeal.Frame
import proofs.«144259_j1580547970481_2_alg».proof.Proof.Pieces

set_option maxRecDepth 16384

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ) (c : Dev nD)

/-- The buffers after the point before `t`. -/
abbrev prev (t : Fin cfg0.N) := outsAt0 m c (t.val - 1) (Nat.lt_of_le_of_lt (Nat.sub_le _ _) t.isLt)

/-- After a first tile. -/
theorem first (t : Fin cfg0.N) (h0 : t.val % 4 = 0) (h1 : ¬t.val % 4 = 3) :
    (outsAt0 m c t.val t.isLt).2.1
        = wsumStep (grid0.coords t) (iblk m c 1 t) (iblk m c 2 t) (k0_pay5 (iblk m c 0 t)) (k0_pay6 (iblk m c 0 t)) zeroCol
      ∧ (outsAt0 m c t.val t.isLt).2.2.1 = accStep (grid0.coords t) (iblk m c 1 t) (iblk m c 2 t) zeroAcc
      ∧ (outsAt0 m c t.val t.isLt).2.2.2.1 = k0_pay5 (iblk m c 0 t)
      ∧ (outsAt0 m c t.val t.isLt).2.2.2.2 = k0_pay6 (iblk m c 0 t) := by
  rw [outsAt0_A m c t h0 h1]
  dsimp only
  refine ⟨?_, ?_, ?_, ?_⟩
  · exact out_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))
  · exact sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))
  · exact sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))
  · exact sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

/-- After a middle tile. -/
theorem middle (t : Fin cfg0.N) (h0 : ¬t.val % 4 = 0) (h1 : ¬t.val % 4 = 3) :
    (outsAt0 m c t.val t.isLt).2.1
        = wsumStep (grid0.coords t) (iblk m c 1 t) (iblk m c 2 t) (prev m c t).2.2.2.1 (prev m c t).2.2.2.2 (prev m c t).2.1
      ∧ (outsAt0 m c t.val t.isLt).2.2.1 = accStep (grid0.coords t) (iblk m c 1 t) (iblk m c 2 t) (prev m c t).2.2.1
      ∧ (outsAt0 m c t.val t.isLt).2.2.2.1 = (prev m c t).2.2.2.1
      ∧ (outsAt0 m c t.val t.isLt).2.2.2.2 = (prev m c t).2.2.2.2 := by
  rw [outsAt0_B m c t h0 h1]
  dsimp only
  refine ⟨?_, ?_, rfl, rfl⟩
  · exact out_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · exact sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a last tile. -/
theorem last (t : Fin cfg0.N) (h0 : ¬t.val % 4 = 0) (h1 : t.val % 4 = 3) :
    (outsAt0 m c t.val t.isLt).1
        = k0_pay2 (iblk m c 0 t) (accStep (grid0.coords t) (iblk m c 1 t) (iblk m c 2 t) (prev m c t).2.2.1)
      ∧ (outsAt0 m c t.val t.isLt).2.1
        = wsumStep (grid0.coords t) (iblk m c 1 t) (iblk m c 2 t) (prev m c t).2.2.2.1 (prev m c t).2.2.2.2 (prev m c t).2.1
      ∧ (outsAt0 m c t.val t.isLt).2.2.1 = accStep (grid0.coords t) (iblk m c 1 t) (iblk m c 2 t) (prev m c t).2.2.1
      ∧ (outsAt0 m c t.val t.isLt).2.2.2.1 = (prev m c t).2.2.2.1
      ∧ (outsAt0 m c t.val t.isLt).2.2.2.2 = (prev m c t).2.2.2.2 := by
  rw [outsAt0_C m c t h0 h1]
  dsimp only
  refine ⟨?_, ?_, ?_, rfl, rfl⟩
  · exact out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · exact out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · exact sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Steps

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Payloads.lean ====
/-
  The body's arithmetic terms read at one index, over the extended reals.  Every term is a combination of: products
  and differences taken entry by entry; a sum along a row (a lane reduction from the zero word); a per-row value viewed
  as a column and spread along its row, or a per-column value spread down its column; and a matrix product into the
  zero accumulator, which is the plain sum of products over the contracted coordinate.  Narrowing to the matrix unit's
  input format changes nothing at these values.
-/
import proofs.«144259_j1580547970481_2_alg».proof.Proof.Gen.KernelIdeal.Skeleton
import proofs.«144259_j1580547970481_2_alg».proof.Proof.LibKeepdims
import Idealize.ShloMosaic.PureOps.Ideal.Laws
import Idealize.ShloMosaic.Lib.ValueIdx
import Idealize.ShloMosaic.Lib.Pipeline.Value

open scoped BigOperators

noncomputable section

namespace Cert.KernelIdeal.Payloads

open Cert.KernelIdeal Cert.KernelIdeal.Gen Idealize.ShloMosaic Idealize.ShloMosaic.ValueIdx

/-- The sum along a row of a [512, 1024] block, at row `b`. -/
theorem rowsum_wide (v : FVec Ideal S512x1024 .f32) (b : Fin 512) :
    multiReduction (F := Ideal) .add [1] S512 v 0x00000000#32 reduces_S512x1024_S512 (.inl rfl) rfl (ix1 b)
      = ∑ d : Fin 1024, v (ix2 b d) := by
  refine (Ideal.multiReduction_add_single v _ reduces_S512x1024_S512 _ _ (ix1 b)).trans ?_
  exact Finset.sum_congr rfl fun d _ => congrArg v (funext fun a => Fin.ext (by
    match a with
    | ⟨0, _⟩ => rfl
    | ⟨1, _⟩ => rfl))

/-- The sum along a row of a [512, 512] block, at row `b`. -/
theorem rowsum_square (v : FVec Ideal S512x512 .f32) (b : Fin 512) :
    multiReduction (F := Ideal) .add [1] S512 v 0x00000000#32 reduces_S512x512_S512 (.inl rfl) rfl (ix1 b)
      = ∑ k : Fin 512, v (ix2 b k) := by
  refine (Ideal.multiReduction_add_single v _ reduces_S512x512_S512 _ _ (ix1 b)).trans ?_
  exact Finset.sum_congr rfl fun d _ => congrArg v (funext fun a => Fin.ext (by
    match a with
    | ⟨0, _⟩ => rfl
    | ⟨1, _⟩ => rfl))

/-- The cached rows are the batch tile's rows. -/
theorem rows_apply (y : FVec Ideal S512x1024 .f32) (j : S512x1024.Idx) : k0_pay5 (F := Ideal) y j = y j := by
  unfold k0_pay5
  rw [shapeCast_self]
  rfl

/-- The cached squared norm of row `b`: the sum of the squares of its entries. -/
theorem sqnorm_apply (y : FVec Ideal S512x1024 .f32) (b : Fin 512) (u : Fin 1) :
    k0_pay6 (F := Ideal) y (ix2 b u) = ∑ d : Fin 1024, y (ix2 b d) * y (ix2 b d) := by
  unfold k0_pay6
  rw [shapeCast_self]
  refine (Cert.LibKeepdims.shapeCast_a_a1_apply _ shapeCasts_S512_S512x1 b u).trans ?_
  exact rowsum_wide (mulf y y) b

/-- The squared residual norm of row `b`: the sum over the row of the squared difference of the two blocks. -/
theorem resid_apply (y acc : FVec Ideal S512x1024 .f32) (b : Fin 512) (u : Fin 1) :
    k0_pay2 (F := Ideal) y acc (ix2 b u)
      = ∑ d : Fin 1024, (y (ix2 b d) - acc (ix2 b d)) * (y (ix2 b d) - acc (ix2 b d)) := by
  unfold k0_pay2
  refine (Cert.LibKeepdims.shapeCast_a_a1_apply _ shapeCasts_S512_S512x1 b u).trans ?_
  exact rowsum_wide (mulf (subf y acc) (subf y acc)) b

/-- The batch-by-dictionary product, rows of the cached batch tile against ROWS of the dictionary tile (the second
    operand is contracted along its own rows' entries): at (b, k) the sum over d of y[b, d] · A[k, d]. -/
theorem cross_apply (l r : FVec Ideal S512x1024 .bf16) (b k : Fin 512) :
    matmul (F := Ideal) dot_S512x1024_S512x1024_S512x512_1_1_0_0_n_n none l r (constant S512x512 .f32 0x00000000#32) (ix2 b k)
      = ∑ d : Fin 1024, l (ix2 b d) * r (ix2 k d) := by
  refine (Ideal.matmul_constant_zero_apply dot_S512x1024_S512x1024_S512x512_1_1_0_0_n_n none l r (ix2 b k)).trans ?_
  rw [← Equiv.sum_comp (contrEquiv1 dot_S512x1024_S512x1024_S512x512_1_1_0_0_n_n 1024 rfl rfl).symm]
  refine Finset.sum_congr rfl fun d _ => ?_
  have hd := contrEquiv1_symm_val dot_S512x1024_S512x1024_S512x512_1_1_0_0_n_n 1024 rfl rfl d
  congr 1
  · refine congrArg l (funext fun a => Fin.ext ?_)
    match a with
    | ⟨0, _⟩ => rfl
    | ⟨1, _⟩ => exact (dot_S512x1024_S512x1024_S512x512_1_1_0_0_n_n.lhsIdx_val_of_single rfl _ _).trans hd
  · refine congrArg r (funext fun a => Fin.ext ?_)
    match a with
    | ⟨0, _⟩ => rfl
    | ⟨1, _⟩ => exact (dot_S512x1024_S512x1024_S512x512_1_1_0_0_n_n.rhsIdx_val_of_single rfl _ _).trans hd

/-- The code-by-dictionary product: at (b, d) the sum over k of x[b, k] · A[k, d]. -/
theorem recon_apply (l : FVec Ideal S512x512 .bf16) (r : FVec Ideal S512x1024 .bf16) (b : Fin 512) (d : Fin 1024) :
    matmul (F := Ideal) dot_S512x512_S512x1024_S512x1024_1_0_0_1_n_n none l r (constant S512x1024 .f32 0x00000000#32) (ix2 b d)
      = ∑ k : Fin 512, l (ix2 b k) * r (ix2 k d) := by
  refine (Ideal.matmul_constant_zero_apply dot_S512x512_S512x1024_S512x1024_1_0_0_1_n_n none l r (ix2 b d)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  congr 1
  · refine congrArg l (funext fun a => Fin.ext ?_)
    match a with
    | ⟨0, _⟩ => rfl
    | ⟨1, _⟩ => exact (dot_S512x512_S512x1024_S512x1024_1_0_0_1_n_n.lhsIdx_val_of_single rfl _ _).trans hk
  · refine congrArg r (funext fun a => Fin.ext ?_)
    match a with
    | ⟨0, _⟩ => exact (dot_S512x512_S512x1024_S512x1024_1_0_0_1_n_n.rhsIdx_val_of_single rfl _ _).trans hk
    | ⟨1, _⟩ => rfl

/-- One more tile into the product accumulator: at (b, d), what it held plus the sum over the tile's 512 dictionary
    rows k of x[b, k] · A[k, d]. -/
theorem acc_apply (At : FVec Ideal S512x1024 .f32) (x : FVec Ideal S512x512 .f32) (acc : FVec Ideal S512x1024 .f32)
    (b : Fin 512) (d : Fin 1024) :
    k0_pay1 (F := Ideal) (k0_pay9 At x acc) (ix2 b d) = acc (ix2 b d) + ∑ k : Fin 512, x (ix2 b k) * At (ix2 k d) := by
  unfold k0_pay1 k0_pay9 k0_pay7
  rw [shapeCast_self]
  refine (addf_apply _ _ _).trans ?_
  exact congrArg (acc (ix2 b d) + ·) (recon_apply _ _ b d)

/-- The number two the body doubles the product by. -/
abbrev two : EReal := Ideal.ofBits .f32 0x40000000#32

/-- One more tile into the running weighted row sums: at row b, what they held plus the sum over the tile's 512
    dictionary rows k of (‖y_b‖² − 2·⟨y_b, A_k⟩ + ‖A_k‖²) · x[b, k]. -/
theorem wsum_apply (At : FVec Ideal S512x1024 .f32) (x : FVec Ideal S512x512 .f32) (ybf : FVec Ideal S512x1024 .bf16)
    (ysq ws : FVec Ideal S512x1 .f32) (b : Fin 512) (u : Fin 1) :
    k0_pay8 (F := Ideal) At x ybf ysq ws (ix2 b u)
      = ws (ix2 b u) + ∑ k : Fin 512,
          ((ysq (ix2 b (0 : Fin 1)) - two * ∑ d : Fin 1024, ybf (ix2 b d) * At (ix2 k d))
            + ∑ d : Fin 1024, At (ix2 k d) * At (ix2 k d)) * x (ix2 b k) := by
  unfold k0_pay8 k0_pay7
  rw [shapeCast_self]
  refine (addf_apply _ _ _).trans ?_
  refine congrArg (ws (ix2 b u) + ·) ?_
  refine (Cert.LibKeepdims.shapeCast_a_a1_apply _ shapeCasts_S512_S512x1 b u).trans ?_
  refine (rowsum_square _ b).trans ?_
  refine Finset.sum_congr rfl fun k _ => ?_
  refine (mulf_apply _ _ _).trans ?_
  refine congrArg (· * x (ix2 b k)) ?_
  refine (addf_apply _ _ _).trans ?_
  refine congr (congrArg HAdd.hAdd ?_) ?_
  · refine (subf_apply _ _ _).trans ?_
    refine congr (congrArg HSub.hSub ?_) ?_
    · exact Cert.LibKeepdims.broadcastTo_a1_ab_apply ysq broadcasts_S512x1_S512x512 b k
    · refine (mulf_apply _ _ _).trans ?_
      exact congrArg (two * ·) (cross_apply ybf _ b k)
  · refine (Cert.LibKeepdims.rowdims_apply _ shapeCasts_S512_S1x512 broadcasts_S1x512_S512x512 b k).trans ?_
    exact rowsum_wide (mulf At At) k

end Cert.KernelIdeal.Payloads

end
-- ==== Proof.Spec.lean ====
/-
  The loss as a function of the three argument arrays, over the extended reals, and the one regrouping law that joins
  a sweep over four dictionary tiles to a sum over the whole dictionary.

  For a batch row r, with y_r its target, x_r its code and A the dictionary (rows A_k):
    * the reconstruction term  ρ(r) = ∑_d (y_r[d] − ∑_k x_r[k]·A_k[d])²,
    * the locality term        λ(r) = ∑_k (‖y_r‖² − 2·⟨y_r, A_k⟩ + ‖A_k‖²) · x_r[k].
  The dictionary index k runs over 2048 = 4 · 512 rows; a sum over it is the sum over the four tiles j of the sums over
  the tile's 512 rows 512·j + κ.  Addition of extended reals is commutative and associative (with −∞ absorbing), so this
  regrouping holds for all values, finite or not.
-/
import Idealize.ShloMosaic.PureOps.Ideal
import Idealize.ShloMosaic.Lib.ValueIdx
import Mathlib.Algebra.BigOperators.Fin

open scoped BigOperators

noncomputable section

namespace Cert.Loss

open Idealize.ShloMosaic Idealize.ShloMosaic.ValueIdx

/-- The shapes of the dictionary, the targets and the codes. -/
abbrev SDict : Shape := ⟨2, ![2048, 1024]⟩
abbrev STarget : Shape := ⟨2, ![8192, 1024]⟩
abbrev SCode : Shape := ⟨2, ![8192, 2048]⟩

/-- Batch row `b` of batch tile `i`. -/
def row (i : Fin 16) (b : Fin 512) : Fin 8192 := ⟨512 * i.val + b.val, by omega⟩
/-- Dictionary row `κ` of dictionary tile `j`. -/
def col (j : Fin 4) (κ : Fin 512) : Fin 2048 := ⟨512 * j.val + κ.val, by omega⟩

/-- A sum over the dictionary is the sum over its four tiles of the sums over each tile. -/
theorem sum_tiles {M : Type*} [AddCommMonoid M] (f : Fin 2048 → M) :
    ∑ k : Fin 2048, f k = ∑ j : Fin 4, ∑ κ : Fin 512, f (col j κ) := by
  rw [← Finset.sum_product' (Finset.univ : Finset (Fin 4)) (Finset.univ : Finset (Fin 512)) (fun j κ => f (col j κ))]
  rw [Finset.univ_product_univ]
  refine (Fintype.sum_equiv (finProdFinEquiv (m := 4) (n := 512)) (fun p => f (col p.1 p.2)) f fun p => ?_).symm
  refine congrArg f (Fin.ext ?_)
  show 512 * p.1.val + p.2.val = p.2.val + 512 * p.1.val
  omega

/-- The sum of the terms of the tiles up to tile `q`. -/
def upTo {M : Type*} [AddCommMonoid M] (T : Fin 4 → M) (q : ℕ) : M := ∑ j : Fin 4, if j.val ≤ q then T j else 0

theorem upTo_zero {M : Type*} [AddCommMonoid M] (T : Fin 4 → M) : upTo T 0 = T 0 := by
  simp [upTo, Fin.sum_univ_four]

theorem upTo_succ {M : Type*} [AddCommMonoid M] (T : Fin 4 → M) (q : ℕ) (hq : q + 1 < 4) :
    upTo T (q + 1) = upTo T q + T ⟨q + 1, hq⟩ := by
  have h3 : q = 0 ∨ q = 1 ∨ q = 2 := by omega
  rcases h3 with rfl | rfl | rfl <;> simp [upTo, Fin.sum_univ_four] <;> rfl

theorem upTo_three {M : Type*} [AddCommMonoid M] (T : Fin 4 → M) : upTo T 3 = ∑ j : Fin 4, T j := by
  refine Finset.sum_congr rfl fun j _ => if_pos ?_
  have := j.isLt; omega

/-- So a sum over the dictionary is the sum of the tiles' sums up to the last tile. -/
theorem sum_eq_upTo {M : Type*} [AddCommMonoid M] (f : Fin 2048 → M) :
    ∑ k : Fin 2048, f k = upTo (fun j => ∑ κ : Fin 512, f (col j κ)) 3 := by
  rw [upTo_three, sum_tiles]

variable (A : SDict.Idx → EReal) (y : STarget.Idx → EReal) (x : SCode.Idx → EReal)

/-- The number two, as the float word both programs spell it. -/
abbrev two : EReal := Ideal.ofBits .f32 0x40000000#32

/-- The reconstruction of target row `r` at coordinate `d`. -/
def recon (r : Fin 8192) (d : Fin 1024) : EReal := ∑ k : Fin 2048, x (ix2 r k) * A (ix2 k d)

/-- The reconstruction term of row `r`. -/
def rho (r : Fin 8192) : EReal := ∑ d : Fin 1024, (y (ix2 r d) - recon A x r d) * (y (ix2 r d) - recon A x r d)

/-- The squared distance of target row `r` to dictionary row `k`, in its expanded form. -/
def dist2 (r : Fin 8192) (k : Fin 2048) : EReal :=
  ((∑ d : Fin 1024, y (ix2 r d) * y (ix2 r d)) - two * ∑ d : Fin 1024, y (ix2 r d) * A (ix2 k d))
    + ∑ d : Fin 1024, A (ix2 k d) * A (ix2 k d)

/-- The locality term of row `r`. -/
def lam (r : Fin 8192) : EReal := ∑ k : Fin 2048, dist2 A y r k * x (ix2 r k)

/-- A total over a one-column array is the total over its rows. -/
theorem sum_column {M : Type*} [AddCommMonoid M] (g : (⟨2, ![8192, 1]⟩ : Shape).Idx → M) :
    ∑ j : (⟨2, ![8192, 1]⟩ : Shape).Idx, g j = ∑ r : Fin 8192, g (ix2 r (0 : Fin 1)) := by
  rw [sum_idx2]
  refine Finset.sum_congr rfl fun r _ => ?_
  exact Fin.sum_univ_one _

/-- A total over a vector is the total over its entries. -/
theorem sum_vector {M : Type*} [AddCommMonoid M] (g : (⟨1, ![8192]⟩ : Shape).Idx → M) :
    ∑ j : (⟨1, ![8192]⟩ : Shape).Idx, g j = ∑ r : Fin 8192, g (ix1 r) := by
  refine (Fintype.sum_equiv (⟨fun j => j 0, fun r => ix1 r, fun j => (eq_ix1 j).symm, fun r => rfl⟩ :
    (⟨1, ![8192]⟩ : Shape).Idx ≃ Fin 8192) g (fun r => g (ix1 r)) fun j => ?_)
  exact congrArg g (eq_ix1 j)

end Cert.Loss

end
-- ==== Proof.Blocks.lean ====
/-
  The blocks the kernel body reads at grid point t, as entries of the whole argument arrays.  Point t is tile
  (t / 4, t % 4) of the 16 × 4 grid: batch tile t / 4, dictionary tile t % 4.  The target block is rows
  512·(t/4) … of the targets; the code block is those rows and columns 512·(t%4) … of the codes; the dictionary is
  resident whole, and the body takes from it the 512 rows 512·(t%4) … itself.
-/
import proofs.«144259_j1580547970481_2_alg».proof.Proof.Gen.KernelIdeal.Frame.Runs
import proofs.«144259_j1580547970481_2_alg».proof.Proof.Pieces
import proofs.«144259_j1580547970481_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Loss

variable (m : (ℓ : Loc nD τ sig) → Buf (Elt Ideal) ℓ) (c : Dev nD)

/-- The batch tile and the dictionary tile of a grid point. -/
def bt (t : Fin cfg0.N) : Fin 16 := ⟨t.val / 4, by have := t.isLt; have hN : cfg0.N = 64 := N_0; omega⟩
def dt (t : Fin cfg0.N) : Fin 4 := ⟨t.val % 4, Nat.mod_lt _ (by decide)⟩

/-- Where the three input windows' blocks sit, decided once over the grid. -/
theorem where0 : ∀ t : Fin cfg0.N, win0_0.index t 0 = t.val / 4 ∧ win0_0.index t 1 = 0 :=
  (by decide +kernel : ∀ t : Fin grid0.N, win0_0.index t 0 = t.val / 4 ∧ win0_0.index t 1 = 0)
theorem where1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem where2 : ∀ t : Fin cfg0.N, win0_2.index t 0 = 0 ∧ win0_2.index t 1 = 0 :=
  (by decide +kernel : ∀ t : Fin grid0.N, win0_2.index t 0 = 0 ∧ win0_2.index t 1 = 0)
/-- A point's coordinate along the dictionary axis. -/
theorem coord1 : ∀ t : Fin cfg0.N, (grid0.coords t 1).val = t.val % 4 :=
  (by decide +kernel : ∀ t : Fin grid0.N, (grid0.coords t 1).val = t.val % 4)

/-- The target block at point t. -/
theorem target_block (t : Fin cfg0.N) (b : Fin 512) (d : Fin 1024) :
    (iblk m c 0 t : Vec Ideal S512x1024 .f32) (ix2 b d) = V m c main_arg1 (ix2 (row (bt t) b) d) := by
  unfold iblk
  rw [View.read_apply]
  show V m c main_arg1 _ = V m c main_arg1 _
  refine congrArg _ (funext fun a => Fin.ext ?_)
  match a with
  | ⟨0, _⟩ => show win0_0.index t 0 * 512 + 1 * b.val = 512 * (t.val / 4) + b.val; rw [(where0 t).1]; omega
  | ⟨1, _⟩ => show win0_0.index t 1 * 1024 + 1 * d.val = d.val; rw [(where0 t).2]; omega

/-- The code block at point t. -/
theorem code_block (t : Fin cfg0.N) (b : Fin 512) (k : Fin 512) :
    (iblk m c 1 t : Vec Ideal S512x512 .f32) (ix2 b k) = V m c main_arg2 (ix2 (row (bt t) b) (col (dt t) k)) := by
  unfold iblk
  rw [View.read_apply]
  show V m c main_arg2 _ = V m c main_arg2 _
  refine congrArg _ (funext fun a => Fin.ext ?_)
  match a with
  | ⟨0, _⟩ => show win0_1.index t 0 * 512 + 1 * b.val = 512 * (t.val / 4) + b.val; rw [(where1 t).1]; omega
  | ⟨1, _⟩ => show win0_1.index t 1 * 512 + 1 * k.val = 512 * (t.val % 4) + k.val; rw [(where1 t).2]; omega

/-- The resident dictionary at point t is the whole dictionary. -/
theorem dict_whole (t : Fin cfg0.N) (r : Fin 2048) (d : Fin 1024) :
    (iblk m c 2 t : Vec Ideal S2048x1024 .f32) (ix2 r d) = V m c main_arg0 (ix2 r d) := by
  unfold iblk
  rw [View.read_apply]
  show V m c main_arg0 _ = V m c main_arg0 _
  refine congrArg _ (funext fun a => Fin.ext ?_)
  match a with
  | ⟨0, _⟩ => show win0_2.index t 0 * 2048 + 1 * r.val = r.val; rw [(where2 t).1]; omega
  | ⟨1, _⟩ => show win0_2.index t 1 * 1024 + 1 * d.val = d.val; rw [(where2 t).2]; omega

/-- The dictionary tile the body takes at point t: rows 512·(t%4) … of the dictionary. -/
theorem dict_tile (t : Fin cfg0.N) (k : Fin 512) (d : Fin 1024) :
    Pieces.dictTile (grid0.coords t) (iblk m c 2 t : Vec Ideal S2048x1024 .f32) (ix2 k d)
      = V m c main_arg0 (ix2 (col (dt t) k) d) := by
  unfold Pieces.dictTile
  have e : (Rect.unit (s := S2048x1024) (k0_off1 (grid0.coords t)) S512x1024.size (k0_off1_inb (grid0.coords t))).emb (ix2 k d)
      = ix2 (col (dt t) k) d := by
    refine funext fun a => Fin.ext ?_
    match a with
    | ⟨0, _⟩ =>
      show k0_off1 (grid0.coords t) 0 + 1 * k.val = 512 * (t.val % 4) + k.val
      rw [k0_off1_eq, ← coord1 t]
      show 512 * (grid0.coords t 1).val + 1 * k.val = _
      omega
    | ⟨1, _⟩ =>
      show k0_off1 (grid0.coords t) 1 + 1 * d.val = d.val
      rw [k0_off1_eq]
      show 0 + 1 * d.val = d.val
      omega
  show (iblk m c 2 t : Vec Ideal S2048x1024 .f32) ((Rect.unit (s := S2048x1024) (k0_off1 (grid0.coords t)) S512x1024.size (k0_off1_inb (grid0.coords t))).emb (ix2 k d)) = _
  rw [e]
  exact dict_whole m c t _ d

end Cert.KernelIdeal.Blocks

end
-- ==== Proof.Sweep.lean ====
/-
  What the accumulators hold after each grid point, in terms of the whole argument arrays.  Within a sweep over the four
  dictionary tiles of batch tile i, after the tile j of point t = 4·i + j:
    * the product accumulator holds, at (b, d), the sum over the tiles up to j of ∑_κ x[r, 512·j'+κ] · A[512·j'+κ, d],
    * the running weighted row sum holds, at b, the sum over the tiles up to j of ∑_κ dist²(r, 512·j'+κ) · x[r, 512·j'+κ],
    * the two caches hold target row r and its squared norm,
  where r = 512·i + b.  By induction on the point: a first tile starts both sums from zero, a later tile adds its term.
  After the last tile the sums run over the whole dictionary, and the first output holds the reconstruction term ρ(r),
  the second the locality term λ(r).
-/
import proofs.«144259_j1580547970481_2_alg».proof.Proof.Steps
import proofs.«144259_j1580547970481_2_alg».proof.Proof.Payloads
import proofs.«144259_j1580547970481_2_alg».proof.Proof.Blocks
import proofs.«144259_j1580547970481_2_alg».proof.Proof.Spec

set_option maxRecDepth 16384

open scoped BigOperators

noncomputable section

open Idealize.ShloMosaic Idealize.ShloMosaic.TcCoe Idealize.SL.Sem Idealize.ShloMosaic.ValueIdx

namespace Cert.KernelIdeal.Sweep

open Cert.KernelIdeal Cert.KernelIdeal.Gen Cert.Loss Cert.KernelIdeal.Blocks

variable (m : (ℓ : Loc nD τ sig) → Buf (Elt Ideal) ℓ) (c : Dev nD)

/-- The argument arrays as the kernel finds them. -/
abbrev dictA : SDict.Idx → EReal := V m c main_arg0
abbrev targY : STarget.Idx → EReal := V m c main_arg1
abbrev codeX : SCode.Idx → EReal := V m c main_arg2

/-- Dictionary tile j's part of the reconstruction of row r at coordinate d, and of the locality term of row r. -/
def reconTile (r : Fin 8192) (d : Fin 1024) (j : Fin 4) : EReal :=
  ∑ κ : Fin 512, codeX m c (ix2 r (col j κ)) * dictA m c (ix2 (col j κ) d)
def lamTile (r : Fin 8192) (j : Fin 4) : EReal :=
  ∑ κ : Fin 512, dist2 (dictA m c) (targY m c) r (col j κ) * codeX m c (ix2 r (col j κ))

/-- One more tile into the product accumulator, in array terms. -/
theorem acc_tile (t : Fin cfg0.N) (acc : FVec Ideal S512x1024 .f32) (b : Fin 512) (d : Fin 1024) :
    Pieces.accStep (grid0.coords t) (iblk m c 1 t) (iblk m c 2 t) acc (ix2 b d)
      = acc (ix2 b d) + reconTile m c (row (bt t) b) d (dt t) := by
  unfold Pieces.accStep
  refine (Payloads.acc_apply (Pieces.dictTile (grid0.coords t) (iblk m c 2 t)) (iblk m c 1 t) acc b d).trans ?_
  refine congrArg (acc (ix2 b d) + ·) (Finset.sum_congr rfl fun κ _ => ?_)
  rw [code_block m c t b κ, dict_tile m c t κ d]

/-- One more tile into the running weighted row sums, in array terms, when the caches hold the target rows and their
    squared norms. -/
theorem ws_tile (t : Fin cfg0.N) (ybf : FVec Ideal S512x1024 .bf16) (ysq ws : FVec Ideal S512x1 .f32)
    (hrows : ∀ (b : Fin 512) (d : Fin 1024), ybf (ix2 b d) = targY m c (ix2 (row (bt t) b) d))
    (hnorms : ∀ (b : Fin 512) (u : Fin 1), ysq (ix2 b u)
      = ∑ d : Fin 1024, targY m c (ix2 (row (bt t) b) d) * targY m c (ix2 (row (bt t) b) d))
    (b : Fin 512) (u : Fin 1) :
    Pieces.wsumStep (grid0.coords t) (iblk m c 1 t) (iblk m c 2 t) ybf ysq ws (ix2 b u)
      = ws (ix2 b u) + lamTile m c (row (bt t) b) (dt t) := by
  unfold Pieces.wsumStep
  refine (Payloads.wsum_apply (Pieces.dictTile (grid0.coords t) (iblk m c 2 t)) (iblk m c 1 t) ybf ysq ws b u).trans ?_
  refine congrArg (ws (ix2 b u) + ·) (Finset.sum_congr rfl fun κ _ => ?_)
  rw [code_block m c t b κ, hnorms b 0]
  refine congrArg (· * codeX m c (ix2 (row (bt t) b) (col (dt t) κ))) ?_
  unfold dist2
  refine congr (congrArg HAdd.hAdd (congrArg (_ - Loss.two * ·) (Finset.sum_congr rfl fun d _ => ?_))) (Finset.sum_congr rfl fun d _ => ?_)
  · rw [hrows b d, dict_tile m c t κ d]
  · rw [dict_tile m c t κ d]

/-- What the buffers hold after point n. -/
structure Holds (n : ℕ) (hn : n < cfg0.N) : Prop where
  acc : ∀ (b : Fin 512) (d : Fin 1024), (outsAt0 m c n hn).2.2.1 (ix2 b d)
    = upTo (reconTile m c (row (bt ⟨n, hn⟩) b) d) (n % 4)
  ws : ∀ (b : Fin 512) (u : Fin 1), (outsAt0 m c n hn).2.1 (ix2 b u) = upTo (lamTile m c (row (bt ⟨n, hn⟩) b)) (n % 4)
  rows : ∀ (b : Fin 512) (d : Fin 1024), (outsAt0 m c n hn).2.2.2.1 (ix2 b d) = targY m c (ix2 (row (bt ⟨n, hn⟩) b) d)
  norms : ∀ (b : Fin 512) (u : Fin 1), (outsAt0 m c n hn).2.2.2.2 (ix2 b u)
    = ∑ d : Fin 1024, targY m c (ix2 (row (bt ⟨n, hn⟩) b) d) * targY m c (ix2 (row (bt ⟨n, hn⟩) b) d)

/-- The zero block and the zero column are zero. -/
theorem zeroAcc_apply (j : S512x1024.Idx) : (Pieces.zeroAcc (F := Ideal)) j = 0 := by
  show Ideal.ofBits .f32 0x00000000#32 = 0
  exact Ideal.ofBits_zero_f32
theorem zeroCol_apply (j : S512x1.Idx) : (Pieces.zeroCol (F := Ideal)) j = 0 := by
  show Ideal.ofBits .f32 0x00000000#32 = 0
  exact Ideal.ofBits_zero_f32

/-- After a first tile. -/
theorem holds_first (t : Fin cfg0.N) (h0 : t.val % 4 = 0) : Holds m c t.val t.isLt := by
  obtain ⟨hw, ha, hr, hs⟩ := Steps.first m c t h0 (by omega)
  have hd : dt t = 0 := Fin.ext h0
  have rows : ∀ (b : Fin 512) (d : Fin 1024), (outsAt0 m c t.val t.isLt).2.2.2.1 (ix2 b d) = targY m c (ix2 (row (bt t) b) d) := by
    intro b d
    rw [hr]
    exact (Payloads.rows_apply (iblk m c 0 t) (ix2 b d)).trans (target_block m c t b d)
  have norms : ∀ (b : Fin 512) (u : Fin 1), (outsAt0 m c t.val t.isLt).2.2.2.2 (ix2 b u)
      = ∑ d : Fin 1024, targY m c (ix2 (row (bt t) b) d) * targY m c (ix2 (row (bt t) b) d) := by
    intro b u
    rw [hs]
    refine (Payloads.sqnorm_apply (iblk m c 0 t) b u).trans (Finset.sum_congr rfl fun d _ => ?_)
    rw [target_block m c t b d]
  refine ⟨fun b d => ?_, fun b u => ?_, rows, norms⟩
  · rw [ha, acc_tile m c t _ b d, zeroAcc_apply, zero_add, h0, upTo_zero, hd]
  · rw [hw, ws_tile m c t _ _ _ (fun b d => by rw [← hr]; exact rows b d) (fun b u => by rw [← hs]; exact norms b u) b u,
      zeroCol_apply, zero_add, h0, upTo_zero, hd]

/-- After a later tile, from what the point before left. -/
theorem holds_later (t : Fin cfg0.N) (h0 : ¬t.val % 4 = 0)
    (ih : Holds m c (t.val - 1) (Nat.lt_of_le_of_lt (Nat.sub_le _ _) t.isLt)) : Holds m c t.val t.isLt := by
  have hlater : (outsAt0 m c t.val t.isLt).2.1
        = Pieces.wsumStep (grid0.coords t) (iblk m c 1 t) (iblk m c 2 t) (Steps.prev m c t).2.2.2.1 (Steps.prev m c t).2.2.2.2 (Steps.prev m c t).2.1
      ∧ (outsAt0 m c t.val t.isLt).2.2.1 = Pieces.accStep (grid0.coords t) (iblk m c 1 t) (iblk m c 2 t) (Steps.prev m c t).2.2.1
      ∧ (outsAt0 m c t.val t.isLt).2.2.2.1 = (Steps.prev m c t).2.2.2.1
      ∧ (outsAt0 m c t.val t.isLt).2.2.2.2 = (Steps.prev m c t).2.2.2.2 := by
    by_cases h1 : t.val % 4 = 3
    · exact (Steps.last m c t h0 h1).2
    · exact Steps.middle m c t h0 h1
  obtain ⟨hw, ha, hr, hs⟩ := hlater
  have hb : bt ⟨t.val - 1, Nat.lt_of_le_of_lt (Nat.sub_le _ _) t.isLt⟩ = bt t :=
    Fin.ext (by show (t.val - 1) / 4 = t.val / 4; omega)
  have hq : t.val % 4 = (t.val - 1) % 4 + 1 := by omega
  have hlt : (t.val - 1) % 4 + 1 < 4 := by omega
  have hd : dt t = ⟨(t.val - 1) % 4 + 1, hlt⟩ := Fin.ext hq
  have iacc := ih.acc
  have iws := ih.ws
  have irows := ih.rows
  have inorms := ih.norms
  rw [hb] at iacc iws irows inorms
  refine ⟨fun b d => ?_, fun b u => ?_, fun b d => ?_, fun b u => ?_⟩
  · rw [ha, acc_tile m c t _ b d, hq, upTo_succ _ _ hlt, ← hd]
    exact congrArg (· + reconTile m c (row (bt t) b) d (dt t)) (iacc b d)
  · rw [hw, ws_tile m c t _ _ _ irows inorms b u, hq, upTo_succ _ _ hlt, ← hd]
    exact congrArg (· + lamTile m c (row (bt t) b) (dt t)) (iws b u)
  · rw [hr]; exact irows b d
  · rw [hs]; exact inorms b u

/-- After every point. -/
theorem holds : ∀ (n : ℕ) (hn : n < cfg0.N), Holds m c n hn
  | 0, hn => holds_first m c ⟨0, hn⟩ rfl
  | n + 1, hn => by
    by_cases h0 : (n + 1) % 4 = 0
    · exact holds_first m c ⟨n + 1, hn⟩ h0
    · exact holds_later m c ⟨n + 1, hn⟩ h0 (holds n (Nat.lt_of_succ_lt hn))

/-- After a sweep's last tile the first output holds the reconstruction terms of the batch tile's rows, -/
theorem out_rho (t : Fin cfg0.N) (h1 : t.val % 4 = 3) (b : Fin 512) (u : Fin 1) :
    (outsAt0 m c t.val t.isLt).1 (ix2 b u) = rho (dictA m c) (targY m c) (codeX m c) (row (bt t) b) := by
  have H := holds m c t.val t.isLt
  obtain ⟨h3, -, ha, -, -⟩ := Steps.last m c t (by omega) h1
  rw [h3, ← ha]
  refine (Payloads.resid_apply (iblk m c 0 t) _ b u).trans (Finset.sum_congr rfl fun d _ => ?_)
  rw [target_block m c t b d, H.acc b d, h1]
  unfold recon
  rw [sum_eq_upTo]
  rfl

/-- and the second their locality terms. -/
theorem out_lam (t : Fin cfg0.N) (h1 : t.val % 4 = 3) (b : Fin 512) (u : Fin 1) :
    (outsAt0 m c t.val t.isLt).2.1 (ix2 b u) = lam (dictA m c) (targY m c) (codeX m c) (row (bt t) b) := by
  rw [(holds m c t.val t.isLt).ws b u, h1]
  unfold lam
  rw [sum_eq_upTo]
  rfl

end Cert.KernelIdeal.Sweep

end
-- ==== Proof.Arrays.lean ====
/-
  The kernel's two result columns after the run.  Output block i (rows 512·i … of an [8192, 1] column) is written back
  once, after the last dictionary tile of batch tile i, and these sixteen blocks tile the column; so the first column
  ends holding the reconstruction term ρ(r) at every row r and the second the locality term λ(r).
-/
import proofs.«144259_j1580547970481_2_alg».proof.Proof.Sweep
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Loss Cert.KernelIdeal.Blocks Cert.KernelIdeal.Sweep

variable (m : (ℓ : Loc nD τ sig) → Buf (Elt Ideal) ℓ) (c : Dev nD)

/-- The column of reconstruction terms and the column of locality terms. -/
def colRho : S8192x1.Idx → EReal := fun j => rho (dictA m c) (targY m c) (codeX m c) ⟨(j 0).val, (j 0).isLt⟩
def colLam : S8192x1.Idx → EReal := fun j => lam (dictA m c) (targY m c) (codeX m c) ⟨(j 0).val, (j 0).isLt⟩

/-- Output 1's blocks, decided once over the grid. -/
theorem where3 : ∀ t : Fin cfg0.N, win0_3.index t 0 = t.val / 4 ∧ win0_3.index t 1 = 0 :=
  (by decide +kernel : ∀ t : Fin grid0.N, win0_3.index t 0 = t.val / 4 ∧ win0_3.index t 1 = 0)

/-- What a sweep's last point writes back through output 1's block is that block of the column. -/
theorem flushed3 (t : Fin cfg0.N) (hf : (cfg0.win 3).flush t = true) :
    (dats m 0 c).flushed 3 t = ((cfg0.win 3).blk t).view.read (Elt Ideal) (colRho m c) := by
  have h3 : t.val % 4 = 3 := (flush0_3 t).mp hf
  show (cfg0.win 3).cut (grid0.coords t) ((dats m 0 c).after 3 t) = _
  rw [after0_3]
  funext j
  obtain ⟨b, u, rfl⟩ : ∃ (b : Fin 512) (u : Fin 1), j = ix2 b u := ⟨j 0, j 1, eq_ix2 j⟩
  refine (out_rho m c t h3 b u).trans ?_
  rw [View.read_apply]
  show rho _ _ _ (row (bt t) b) = rho _ _ _ ⟨(((cfg0.win 3).blk t).view.emb (ix2 b u) 0).val, _⟩
  refine congrArg _ (Fin.ext ?_)
  show 512 * (t.val / 4) + b.val = win0_3.index t 0 * 512 + 1 * b.val
  rw [(where3 t).1]; omega

/-- Every row of the column is in the block of its batch tile's last point. -/
theorem cover3 (i : S8192x1.Idx) : ∃ t : Fin cfg0.N, (cfg0.win 3).flush t = true ∧ i ∈ ((cfg0.win 3).blk t).view.set := by
  have hN : cfg0.N = 64 := N_0
  have hi0 : (i 0).val < 8192 := (i 0).isLt
  have hi1 : (i 1).val < 1 := (i 1).isLt
  let t : Fin cfg0.N := ⟨4 * ((i 0).val / 512) + 3, by omega⟩
  have ht : t.val = 4 * ((i 0).val / 512) + 3 := rfl
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(where3 t).1]; omega
  | ⟨1, _⟩ =>
    show win0_3.index t 1 * 1 ≤ (i 1).val ∧ (i 1).val < win0_3.index t 1 * 1 + 1
    rw [(where3 t).2]; omega

/-- So the array ends holding the column. -/
theorem final3 : (dats m 0 c).arrAt 3 cfg0.N = colRho m c :=
  (dats m 0 c).arrAt_eq_of_cover 3 (colRho m c) (flushed3 m c) cover3

/-- Output 2's blocks, decided once over the grid. -/
theorem where4 : ∀ t : Fin cfg0.N, win0_4.index t 0 = t.val / 4 ∧ win0_4.index t 1 = 0 :=
  (by decide +kernel : ∀ t : Fin grid0.N, win0_4.index t 0 = t.val / 4 ∧ win0_4.index t 1 = 0)

/-- What a sweep's last point writes back through output 2's block is that block of the column. -/
theorem flushed4 (t : Fin cfg0.N) (hf : (cfg0.win 4).flush t = true) :
    (dats m 0 c).flushed 4 t = ((cfg0.win 4).blk t).view.read (Elt Ideal) (colLam m c) := by
  have h3 : t.val % 4 = 3 := (flush0_4 t).mp hf
  show (cfg0.win 4).cut (grid0.coords t) ((dats m 0 c).after 4 t) = _
  rw [after0_4]
  funext j
  obtain ⟨b, u, rfl⟩ : ∃ (b : Fin 512) (u : Fin 1), j = ix2 b u := ⟨j 0, j 1, eq_ix2 j⟩
  refine (out_lam m c t h3 b u).trans ?_
  rw [View.read_apply]
  show lam _ _ _ (row (bt t) b) = lam _ _ _ ⟨(((cfg0.win 4).blk t).view.emb (ix2 b u) 0).val, _⟩
  refine congrArg _ (Fin.ext ?_)
  show 512 * (t.val / 4) + b.val = win0_4.index t 0 * 512 + 1 * b.val
  rw [(where4 t).1]; omega

/-- Every row of the column is in the block of its batch tile's last point. -/
theorem cover4 (i : S8192x1.Idx) : ∃ t : Fin cfg0.N, (cfg0.win 4).flush t = true ∧ i ∈ ((cfg0.win 4).blk t).view.set := by
  have hN : cfg0.N = 64 := N_0
  have hi0 : (i 0).val < 8192 := (i 0).isLt
  have hi1 : (i 1).val < 1 := (i 1).isLt
  let t : Fin cfg0.N := ⟨4 * ((i 0).val / 512) + 3, by omega⟩
  have ht : t.val = 4 * ((i 0).val / 512) + 3 := rfl
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(where4 t).1]; omega
  | ⟨1, _⟩ =>
    show win0_4.index t 1 * 1 ≤ (i 1).val ∧ (i 1).val < win0_4.index t 1 * 1 + 1
    rw [(where4 t).2]; omega

/-- So the array ends holding the column. -/
theorem final4 : (dats m 0 c).arrAt 4 cfg0.N = colLam m c :=
  (dats m 0 c).arrAt_eq_of_cover 4 (colLam m c) (flushed4 m c) cover4

end Cert.KernelIdeal.Arrays

end
-- ==== Proof.KernelResult.lean ====
/-
  The kernel program's result.  After the region the two columns hold the reconstruction terms and the locality terms
  (one per batch row); the host lines after it total each column from the zero word, divide by the batch size, and
  combine the two means with the weights one half and one tenth.
-/
import proofs.«144259_j1580547970481_2_alg».proof.Proof.Arrays
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Loss Cert.KernelIdeal.Sweep Cert.KernelIdeal.Arrays

variable (m : (ℓ : Loc nD τ sig) → Buf (Elt Ideal) ℓ) (ρ : Dev nD → PrngReg)

/-- The host lines after the region, as one function of the two columns. -/
def tail (oa ob : S8192x1.Idx → EReal) : S_.Idx → EReal :=
  addf (F := Ideal)
    (mulf (F := Ideal) (constant (F := Ideal) S_ .f32 0x3F000000#32)
      (Host.divf (F := Ideal) (Host.reduceAdd (F := Ideal) oa (constant (F := Ideal) S_ .f32 0x00000000#32) reducesTo_S8192x1_S_d0_1 h_S_)
        (constant (F := Ideal) S_ .f32 0x46000000#32)))
    (mulf (F := Ideal)
      (Host.divf (F := Ideal) (Host.reduceAdd (F := Ideal) ob (constant (F := Ideal) S_ .f32 0x00000000#32) reducesTo_S8192x1_S_d0_1 h_S_)
        (constant (F := Ideal) S_ .f32 0x46000000#32))
      (constant (F := Ideal) S_ .f32 0x3DCCCCCD#32))

/-- What the program's result buffer holds after the lines after the region. -/
theorem tail_eq (c : Dev nD) :
    Pipeline.afterTail₀ cfgs (dats m) 0 (V0 m) [hostOps1] c main_v7 = tail (colRho m c) (colLam m c) := by
  unfold Pipeline.afterTail₀
  show StableHlo.after hostOps1 _ (Proc.devRef .tc main_v7) = _
  after_results
  have e3 : Pipeline.withArrays (cfgs 0).spec c (V0 m c) (fun w => (dats m 0 c).arrAt w (cfgs 0).N) (Proc.devRef .tc main_v0_0)
      = colRho m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v0_1)
      = colLam m c := (Pipeline.withArrays_arr spec0 launch0.win.arr_inj c _ _ 4).trans (final4 m c)
  rw [e3, e4]
  rfl

/-- The kernel program's run: the result at the tail of the two columns, the arguments unchanged. -/
theorem run : θ_run defs (onTc (τ := τ) (main (F := Ideal))) ⟨m, fun _ => 0, ρ⟩ fun r => ∀ c : Dev nD,
      r.2.mem ((c.tc : Thread nD τ).loc main_v7) = tail (colRho m c) (colLam m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v7 (by decide)).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.Result

end
-- ==== Proof.RefRows.lean ====
/-
  The reference's two per-row sums are the reconstruction term ρ(r) and the locality term λ(r) of the specification:
  its stages are read one operation at a time at the row's indices; a host sum from the zero word is the plain sum,
  a host matrix product the plain sum of products.
-/
import proofs.«144259_j1580547970481_2_alg».proof.Proof.Gen.ReferenceIdeal.Read
import proofs.«144259_j1580547970481_2_alg».proof.Proof.Spec

open scoped BigOperators

noncomputable section

namespace Cert.ReferenceIdeal.Rows

open Cert.ReferenceIdeal Cert.ReferenceIdeal.Gen Cert.ReferenceIdeal.Read Cert.Loss
open Idealize.ShloMosaic Idealize.ShloMosaic.ValueIdx

variable (A : SDict.Idx → EReal) (y : STarget.Idx → EReal) (x : SCode.Idx → EReal)

theorem zero_word : (FloatOps.ofBits (F := Ideal) .f32 0x00000000#32 : EReal) = 0 := Ideal.ofBits_zero_f32

/-- The reference's row sum of squared residuals is the reconstruction term. -/
theorem rho_eq (r : Fin 8192) : val_main_v17 (F := Ideal) A y x (ix1 r) = rho A y x r := by
  rw [val_main_v17_apply, val_main_cst_2_apply, zero_word, zero_add]
  unfold rho recon
  refine Finset.sum_congr rfl fun d _ => ?_
  have e17 : idx_main_v17 (ix1 r) d = ix2 r d := funext fun a => Fin.ext (by match a with | ⟨0, _⟩ => rfl | ⟨1, _⟩ => rfl)
  rw [e17, val_main_v16_apply, val_main_v15_apply, val_main_v14_apply]
  have el : ∀ k : Fin 2048, lidx_main_v14 (ix2 r d) k = ix2 r k := fun k =>
    funext fun a => Fin.ext (by match a with | ⟨0, _⟩ => rfl | ⟨1, _⟩ => rfl)
  have er : ∀ k : Fin 2048, ridx_main_v14 (ix2 r d) k = ix2 k d := fun k =>
    funext fun a => Fin.ext (by match a with | ⟨0, _⟩ => rfl | ⟨1, _⟩ => rfl)
  simp only [el, er]
  rfl

/-- The reference's row sum of weighted squared distances is the locality term. -/
theorem lam_eq (r : Fin 8192) : val_main_v22 (F := Ideal) A y x (ix1 r) = lam A y x r := by
  rw [val_main_v22_apply, val_main_cst_6_apply, zero_word, zero_add]
  unfold lam dist2
  refine Finset.sum_congr rfl fun k _ => ?_
  have e22 : idx_main_v22 (ix1 r) k = ix2 r k := funext fun a => Fin.ext (by match a with | ⟨0, _⟩ => rfl | ⟨1, _⟩ => rfl)
  rw [e22, val_main_v21_apply, val_main_v13_apply, val_main_v11_apply, val_main_v12_apply, val_main_v10_apply,
    val_main_v9_apply, val_main_v8_apply, val_main_v7_apply, val_main_v5_apply, val_main_v4_apply, val_main_v2_apply,
    val_main_v1_apply, val_main_cst_1_apply, val_main_cst_0_apply, val_main_cst_apply, zero_word, zero_add, zero_add]
  have e1 : ∀ d : Fin 1024, idx_main_v1 (idx_main_v2 (idx_main_v10 (ix2 r k))) d = ix2 r d := fun d =>
    funext fun a => Fin.ext (by match a with | ⟨0, _⟩ => rfl | ⟨1, _⟩ => rfl)
  have e4 : ∀ d : Fin 1024, idx_main_v4 (idx_main_v5 (idx_main_v12 (ix2 r k))) d = ix2 k d := fun d =>
    funext fun a => Fin.ext (by match a with | ⟨0, _⟩ => rfl | ⟨1, _⟩ => rfl)
  have el : ∀ d : Fin 1024, lidx_main_v7 (ix2 r k) d = ix2 r d := fun d =>
    funext fun a => Fin.ext (by match a with | ⟨0, _⟩ => rfl | ⟨1, _⟩ => rfl)
  have er : ∀ d : Fin 1024, idx_main_v6 (ridx_main_v7 (ix2 r k) d) = ix2 k d := fun d =>
    funext fun a => Fin.ext (by match a with | ⟨0, _⟩ => rfl | ⟨1, _⟩ => rfl)
  simp only [e1, e4, el, val_main_v6_apply, er, val_main_v0_apply, val_main_v3_apply]
  rfl

end Cert.ReferenceIdeal.Rows

end
-- ==== Proof.Bridge.lean ====
/-
  The two programs end at the same number.  Each ends with the same last lines: total a family of per-row terms from
  the zero word, divide by the batch size, and combine the two means with the weights one half and one tenth.  The
  kernel totals its two columns over both of their axes; the reference totals its two vectors; either way the total is
  the sum over the 8192 batch rows of the reconstruction terms ρ(r), respectively of the locality terms λ(r), of the same
  argument arrays.  No law beyond re-indexing and regrouping of sums is used, so nothing is asked of the values.
-/
import proofs.«144259_j1580547970481_2_alg».proof.Proof.KernelResult
import proofs.«144259_j1580547970481_2_alg».proof.Proof.RefRows

set_option maxRecDepth 16384

open scoped BigOperators

noncomputable section

open Idealize.ShloMosaic Idealize.ShloMosaic.TcCoe Idealize.SL.Sem Idealize.ShloMosaic.ValueIdx

namespace Cert.Bridge

open Cert.Loss

/-- The last lines of both programs, as a function of the two totals. -/
def combine (sa sb : EReal) : EReal :=
  FloatOps.addf (F := Ideal) (φ := .f32)
    (FloatOps.mulf (F := Ideal) (φ := .f32) (FloatOps.ofBits .f32 0x3F000000#32)
      (FloatOps.hostDivf (F := Ideal) (φ := .f32) sa (FloatOps.ofBits .f32 0x46000000#32)))
    (FloatOps.mulf (F := Ideal) (φ := .f32)
      (FloatOps.hostDivf (F := Ideal) (φ := .f32) sb (FloatOps.ofBits .f32 0x46000000#32))
      (FloatOps.ofBits .f32 0x3DCCCCCD#32))

/-- The kernel program's result, from its two columns. -/
theorem kernel_apply (oa ob : Cert.KernelIdeal.S8192x1.Idx → EReal) (i : Cert.KernelIdeal.S_.Idx) :
    Cert.KernelIdeal.Result.tail oa ob i
      = combine (0 + ∑ r : Fin 8192, oa (ix2 r (0 : Fin 1))) (0 + ∑ r : Fin 8192, ob (ix2 r (0 : Fin 1))) := by
  have tot : ∀ o : Cert.KernelIdeal.S8192x1.Idx → EReal,
      Host.reduceAdd (F := Ideal) o (constant (F := Ideal) Cert.KernelIdeal.S_ .f32 0x00000000#32)
        Cert.KernelIdeal.Facts₀.reducesTo_S8192x1_S_d0_1 Cert.KernelIdeal.Facts₀.h_S_ i
        = 0 + ∑ r : Fin 8192, o (ix2 r (0 : Fin 1)) := by
    intro o
    simp only [Host.reduceAdd, Ideal.hostReduceAdd_def]
    refine (Ideal.hostReduceAdd_total Cert.KernelIdeal.Facts₀.reducesTo_S8192x1_S_d0_1 (fun b => b.elim0) o _ i).trans ?_
    rw [sum_column]
    refine congrArg (· + ∑ r : Fin 8192, o (ix2 r (0 : Fin 1))) ?_
    show Ideal.ofBits .f32 0x00000000#32 = 0
    exact Ideal.ofBits_zero_f32
  unfold Cert.KernelIdeal.Result.tail
  show combine _ _ = _
  rw [tot oa, tot ob]

/-- The reference's result, from the specification's per-row terms. -/
theorem ref_apply (A : SDict.Idx → EReal) (y : STarget.Idx → EReal) (x : SCode.Idx → EReal) (i : Cert.ReferenceIdeal.S_.Idx) :
    Cert.ReferenceIdeal.Read.val_main_v26 (F := Ideal) A y x i
      = combine (0 + ∑ r : Fin 8192, rho A y x r) (0 + ∑ r : Fin 8192, lam A y x r) := by
  rw [Cert.ReferenceIdeal.Read.val_main_v26_apply, Cert.ReferenceIdeal.Read.val_main_v20_apply,
    Cert.ReferenceIdeal.Read.val_main_v25_apply, Cert.ReferenceIdeal.Read.val_main_v19_apply,
    Cert.ReferenceIdeal.Read.val_main_v24_apply, Cert.ReferenceIdeal.Read.val_main_v18_apply,
    Cert.ReferenceIdeal.Read.val_main_v23_apply, Cert.ReferenceIdeal.Read.val_main_cst_3_apply,
    Cert.ReferenceIdeal.Read.val_main_cst_7_apply, Cert.ReferenceIdeal.Rows.zero_word, sum_vector, sum_vector]
  simp only [Cert.ReferenceIdeal.Rows.rho_eq, Cert.ReferenceIdeal.Rows.lam_eq]
  rfl

/-- One number: the reference's result on the kernel's argument arrays is the kernel program's result. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Result.tail (Cert.KernelIdeal.Arrays.colRho m c) (Cert.KernelIdeal.Arrays.colLam m c) := by
  funext i
  rw [ref_apply, kernel_apply]
  rfl

end Cert.Bridge

end
-- ==== Proof.lean ====
/-
  The certificate of the dictionary loss kernel against its reference.

  The kernel sweeps, for each of 16 batch tiles, the 4 tiles of the dictionary, accumulating for every batch row r the
  product ∑_k x_r[k]·A_k and the weighted sum ∑_k (‖y_r‖² − 2⟨y_r, A_k⟩ + ‖A_k‖²)·x_r[k] tile by tile from zero, and after
  the last tile writes ρ(r) = ‖y_r − ∑_k x_r[k]·A_k‖² and λ(r) (the finished weighted sum) into two columns; the host
  then means each column and returns ½·mean ρ + mean λ · 0.1.  The reference computes the same two per-row terms with
  whole-array operations and the same last lines.  Over the extended reals the only difference is the grouping of the
  sums over the dictionary index into four tiles, and addition there is commutative and associative: the two results
  are equal for all argument values.  The frames of the two kernel programs are the generated ones; the reference's is
  its generated run; the idealization rewrote nothing.
-/
import proofs.«144259_j1580547970481_2_alg».proof.Defs
import proofs.«144259_j1580547970481_2_alg».proof.Proof.Gen.Kernel
import proofs.«144259_j1580547970481_2_alg».proof.Proof.Gen.Kernel.Frame
import proofs.«144259_j1580547970481_2_alg».proof.Proof.Gen.KernelIdeal
import proofs.«144259_j1580547970481_2_alg».proof.Proof.Gen.KernelIdeal.Frame
import proofs.«144259_j1580547970481_2_alg».proof.Proof.Gen.ReferenceIdeal
import proofs.«144259_j1580547970481_2_alg».proof.Proof.Gen.ReferenceIdeal.Run
import proofs.«144259_j1580547970481_2_alg».proof.Proof.Gen.ReferenceIdeal.Read
import proofs.«144259_j1580547970481_2_alg».proof.Proof.Gen.Pre_finite_inputs
import proofs.«144259_j1580547970481_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories agreeing on the three arrays, end at the one number of `Cert.Bridge.result_eq`. -/
theorem algebraic : Cert.algebraic_KernelIdeal_ReferenceIdeal := by
  intro m ρ m' ρ' _ hagree
  refine ⟨fun c => Cert.KernelIdeal.Result.tail (Cert.KernelIdeal.Arrays.colRho m c) (Cert.KernelIdeal.Arrays.colLam m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
